-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x513 : Shape := ⟨3, ![64, 1024, 513]⟩
abbrev S1x64x512 : Shape := ⟨3, ![1, 64, 512]⟩
abbrev S2048x513 : Shape := ⟨2, ![2048, 513]⟩
abbrev S2048x512 : Shape := ⟨2, ![2048, 512]⟩
abbrev S2048 : Shape := ⟨1, ![2048]⟩
abbrev S513x512 : Shape := ⟨2, ![513, 512]⟩
abbrev S513 : Shape := ⟨1, ![513]⟩
abbrev S_ : Shape := ⟨0, ![]⟩

class Facts : Prop where
  bcast_S_S64x1024x513 : S_.BroadcastsInDim S64x1024x513 (![] : Fin 0 → Fin S64x1024x513.rank)
  reducesTo_S64x1024x513_S_d0_1_2 : S64x1024x513.ReducesTo [0, 1, 2] S_
  h_S_ : 0 < S_.numel
  bcast_S_S1x64x512 : S_.BroadcastsInDim S1x64x512 (![] : Fin 0 → Fin S1x64x512.rank)
  reducesTo_S1x64x512_S_d0_1_2 : S1x64x512.ReducesTo [0, 1, 2] S_
  bcast_S_S2048x513 : S_.BroadcastsInDim S2048x513 (![] : Fin 0 → Fin S2048x513.rank)
  reducesTo_S2048x513_S_d0_1 : S2048x513.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S513x512 : S_.BroadcastsInDim S513x512 (![] : Fin 0 → Fin S513x512.rank)
  reducesTo_S513x512_S_d0_1 : S513x512.ReducesTo [0, 1] S_
  bcast_S_S513 : S_.BroadcastsInDim S513 (![] : Fin 0 → Fin S513.rank)
  reducesTo_S513_S_d0 : S513.ReducesTo [0] S_

variable [Facts]

def fn_part2 {F : FTy → Type} [FloatOps F] (main_arg7 : FVec F S513x512 .f32) (main_arg8 : FVec F S513 .f32) (main_v33 : IVec S_ 1) : IVec S_ 1 :=
  let main_v34 : FVec F S513x512 .f32 := Host.absf main_arg7
  let main_cst_12 : FVec F S_ .f32 := constant S_ .f32 0x7F800000#32
  let main_v35 : FVec F S513x512 .f32 := broadcastInDim S513x512 ![] bcast_S_S513x512 main_cst_12
  let main_v36 : IVec S513x512 1 := cmpf .olt main_v34 main_v35
  let main_c_13 : IVec S_ 1 := constantI S_ 1 1#1
  let main_v37 : IVec S_ 1 := (fun x v => Host.reduce IntOp.andi x v reducesTo_S513x512_S_d0_1 h_S_) main_v36 main_c_13
  let main_v38 : IVec S_ 1 := andi main_v33 main_v37
  let main_v39 : FVec F S513 .f32 := Host.absf main_arg8
  let main_cst_14 : FVec F S_ .f32 := constant S_ .f32 0x7F800000#32
  let main_v40 : FVec F S513 .f32 := broadcastInDim S513 ![] bcast_S_S513 main_cst_14
  let main_v41 : IVec S513 1 := cmpf .olt main_v39 main_v40
  let main_c_15 : IVec S_ 1 := constantI S_ 1 1#1
  let main_v42 : IVec S_ 1 := (fun x v => Host.reduce IntOp.andi x v reducesTo_S513_S_d0 h_S_) main_v41 main_c_15
  let main_v43 : IVec S_ 1 := andi main_v38 main_v42
  main_v43

def fn_part1 {F : FTy → Type} [FloatOps F] (main_arg4 : FVec F S2048x512 .f32) (main_arg5 : FVec F S2048 .f32) (main_arg6 : FVec F S2048 .f32) (main_arg7 : FVec F S513x512 .f32) (main_arg8 : FVec F S513 .f32) (main_v13 : IVec S_ 1) (main_v16 : IVec S2048x513 1) : IVec S_ 1 :=
  let main_c_5 : IVec S_ 1 := constantI S_ 1 1#1
  let main_v17 : IVec S_ 1 := (fun x v => Host.reduce IntOp.andi x v reducesTo_S2048x513_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S64x1024x513 .f32) (main_arg1 : FVec F S1x64x512 .f32) (main_arg2 : FVec F S1x64x512 .f32) (main_arg3 : FVec F S2048x513 .f32) (main_arg4 : FVec F S2048x512 .f32) (main_arg5 : FVec F S2048 .f32) (main_arg6 : FVec F S2048 .f32) (main_arg7 : FVec F S513x512 .f32) (main_arg8 : FVec F S513 .f32) : IVec S_ 1 :=
  let main_v0 : FVec F S64x1024x513 .f32 := Host.absf main_arg0
  let main_cst : FVec F S_ .f32 := constant S_ .f32 0x7F800000#32
  let main_v1 : FVec F S64x1024x513 .f32 := broadcastInDim S64x1024x513 ![] bcast_S_S64x1024x513 main_cst
  let main_v2 : IVec S64x1024x513 1 := cmpf .olt main_v0 main_v1
  let main_c : IVec S_ 1 := constantI S_ 1 1#1
  let main_v3 : IVec S_ 1 := (fun x v => Host.reduce IntOp.andi x v reducesTo_S64x1024x513_S_d0_1_2 h_S_) main_v2 main_c
  let main_v4 : FVec F S1x64x512 .f32 := Host.absf main_arg1
  let main_cst_0 : FVec F S_ .f32 := constant S_ .f32 0x7F800000#32
  let main_v5 : FVec F S1x64x512 .f32 := broadcastInDim S1x64x512 ![] bcast_S_S1x64x512 main_cst_0
  let main_v6 : IVec S1x64x512 1 := cmpf .olt main_v4 main_v5
  let main_c_1 : IVec S_ 1 := constantI S_ 1 1#1
  let main_v7 : IVec S_ 1 := (fun x v => Host.reduce IntOp.andi x v reducesTo_S1x64x512_S_d0_1_2 h_S_) main_v6 main_c_1
  let main_v8 : IVec S_ 1 := andi main_v3 main_v7
  let main_v9 : FVec F S1x64x512 .f32 := Host.absf main_arg2
  let main_cst_2 : FVec F S_ .f32 := constant S_ .f32 0x7F800000#32
  let main_v10 : FVec F S1x64x512 .f32 := broadcastInDim S1x64x512 ![] bcast_S_S1x64x512 main_cst_2
  let main_v11 : IVec S1x64x512 1 := cmpf .olt main_v9 main_v10
  let main_c_3 : IVec S_ 1 := constantI S_ 1 1#1
  let main_v12 : IVec S_ 1 := (fun x v => Host.reduce IntOp.andi x v reducesTo_S1x64x512_S_d0_1_2 h_S_) main_v11 main_c_3
  let main_v13 : IVec S_ 1 := andi main_v8 main_v12
  let main_v14 : FVec F S2048x513 .f32 := Host.absf main_arg3
  let main_cst_4 : FVec F S_ .f32 := constant S_ .f32 0x7F800000#32
  let main_v15 : FVec F S2048x513 .f32 := broadcastInDim S2048x513 ![] bcast_S_S2048x513 main_cst_4
  let main_v16 : IVec S2048x513 1 := cmpf .olt main_v14 main_v15
  fn_part1 (F := F) main_arg4 main_arg5 main_arg6 main_arg7 main_arg8 main_v13 main_v16
-- ==== Kernel.lean ====
abbrev S64x1024x513 : Shape := ⟨3, ![64, 1024, 513]⟩
abbrev S1x64x512 : Shape := ⟨3, ![1, 64, 512]⟩
abbrev S2048x513 : Shape := ⟨2, ![2048, 513]⟩
abbrev S2048x512 : Shape := ⟨2, ![2048, 512]⟩
abbrev S2048 : Shape := ⟨1, ![2048]⟩
abbrev S513x512 : Shape := ⟨2, ![513, 512]⟩
abbrev S513 : Shape := ⟨1, ![513]⟩
abbrev S64x512 : Shape := ⟨2, ![64, 512]⟩
abbrev S512x2048 : Shape := ⟨2, ![512, 2048]⟩
abbrev S64x2048 : Shape := ⟨2, ![64, 2048]⟩
abbrev S1x2048 : Shape := ⟨2, ![1, 2048]⟩
abbrev S513x2048 : Shape := ⟨2, ![513, 2048]⟩
abbrev S512x513 : Shape := ⟨2, ![512, 513]⟩
abbrev S1x513 : Shape := ⟨2, ![1, 513]⟩
abbrev S8x64x513 : Shape := ⟨3, ![8, 64, 513]⟩
abbrev S8x2048 : Shape := ⟨2, ![8, 2048]⟩
abbrev S8x512 : Shape := ⟨2, ![8, 512]⟩
abbrev S8x64x2048 : Shape := ⟨3, ![8, 64, 2048]⟩
abbrev S8x1x2048 : Shape := ⟨3, ![8, 1, 2048]⟩
abbrev S8x64x512 : Shape := ⟨3, ![8, 64, 512]⟩
abbrev S8x1x512 : Shape := ⟨3, ![8, 1, 512]⟩
abbrev S512x512 : Shape := ⟨2, ![512, 512]⟩

abbrev nBuf : Space → Nat
  | .hbm => 25
  | .vmem => 11
  | .smem => 0
  | _ => 0

abbrev bufTy : (tb : Table) → Fin (tcTables nBuf tb) → BufTy
  | .hbm, ⟨0, _⟩ => ⟨S64x1024x513, .f32⟩
  | .hbm, ⟨1, _⟩ => ⟨S1x64x512, .f32⟩
  | .hbm, ⟨2, _⟩ => ⟨S1x64x512, .f32⟩
  | .hbm, ⟨3, _⟩ => ⟨S2048x513, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S513x512, .f32⟩
  | .hbm, ⟨8, _⟩ => ⟨S513, .f32⟩
  | .hbm, ⟨9, _⟩ => ⟨S64x512, .f32⟩
  | .hbm, ⟨10, _⟩ => ⟨S64x512, .f32⟩
  | .hbm, ⟨11, _⟩ => ⟨S512x2048, .f32⟩
  | .hbm, ⟨12, _⟩ => ⟨S64x2048, .f32⟩
  | .hbm, ⟨13, _⟩ => ⟨S1x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S513x2048, .f32⟩
  | .hbm, ⟨20, _⟩ => ⟨S513x2048, .bf16⟩
  | .hbm, ⟨21, _⟩ => ⟨S512x513, .f32⟩
  | .hbm, ⟨22, _⟩ => ⟨S512x513, .bf16⟩
  | .hbm, ⟨23, _⟩ => ⟨S1x513, .f32⟩
  | .hbm, ⟨24, _⟩ => ⟨S64x1024x513, .f32⟩
  | .local _ .vmem, ⟨0, _⟩ => ⟨S8x64x513, .f32⟩
  | .local _ .vmem, ⟨1, _⟩ => ⟨S8x64x513, .f32⟩
  | .local _ .vmem, ⟨2, _⟩ => ⟨S513x2048, .bf16⟩
  | .local _ .vmem, ⟨3, _⟩ => ⟨S8x2048, .f32⟩
  | .local _ .vmem, ⟨4, _⟩ => ⟨S8x2048, .f32⟩
  | .local _ .vmem, ⟨5, _⟩ => ⟨S8x512, .f32⟩
  | .local _ .vmem, ⟨6, _⟩ => ⟨S8x512, .f32⟩
  | .local _ .vmem, ⟨7, _⟩ => ⟨S512x513, .bf16⟩
  | .local _ .vmem, ⟨8, _⟩ => ⟨S1x513, .f32⟩
  | .local _ .vmem, ⟨9, _⟩ => ⟨S8x64x513, .f32⟩
  | .local _ .vmem, ⟨10, _⟩ => ⟨S8x64x513, .f32⟩
  | _, _ => ⟨S64x1024x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S513x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x513 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x513 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x64x513 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1x64x512_S64x512 : S1x64x512.ShapeCasts S64x512
  transposes_S2048x512_S512x2048_1_0 : S2048x512.Transposes [1, 0] S512x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  transposes_S2048x513_S513x2048_1_0 : S2048x513.Transposes [1, 0] S513x2048
  bitsLt_bf16_f32 : FTy.bits .bf16 < FTy.bits .f32
  transposes_S513x512_S512x513_1_0 : S513x512.Transposes [1, 0] S512x513
  shapeCasts_S513_S1x513 : S513.ShapeCasts S1x513
  inb_S8x64x513_S8x64x513_0_0_0 : ∀ a, (![0, 0, 0] : Fin 3 → Nat) a + S8x64x513.size a ≤ S8x64x513.size a
  h_S8x64x513 : 0 < S8x64x513.numel
  shapeCasts_S8x64x513_S512x513 : S8x64x513.ShapeCasts S512x513
  inb_S513x2048_S513x2048_0_0 : ∀ a, (![0, 0] : Fin 2 → Nat) a + S513x2048.size a ≤ S513x2048.size a
  h_S513x2048 : 0 < S513x2048.numel
  shapeCasts_S513x2048_S513x2048 : S513x2048.ShapeCasts S513x2048
  shapeCasts_S512x2048_S8x64x2048 : S512x2048.ShapeCasts S8x64x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x2048_S8x1x2048 : S8x2048.ShapeCasts S8x1x2048
  broadcasts_S8x1x2048_S8x64x2048 : S8x1x2048.Broadcasts S8x64x2048
  slices_S8x64x2048_o0_0_0_S8x64x512 : S8x64x2048.Slices ![0, 0, 0] S8x64x512
  slices_S8x64x2048_o0_0_512_S8x64x512 : S8x64x2048.Slices ![0, 0, 512] S8x64x512
  slices_S8x64x2048_o0_0_1024_S8x64x512 : S8x64x2048.Slices ![0, 0, 1024] S8x64x512
  slices_S8x64x2048_o0_0_1536_S8x64x512 : S8x64x2048.Slices ![0, 0, 1536] S8x64x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x1x512 : S8x512.ShapeCasts S8x1x512
  broadcasts_S8x1x512_S8x64x512 : S8x1x512.Broadcasts S8x64x512
  shapeCasts_S8x64x512_S512x512 : S8x64x512.ShapeCasts S512x512
  inb_S512x513_S512x513_0_0 : ∀ a, (![0, 0] : Fin 2 → Nat) a + S512x513.size a ≤ S512x513.size a
  h_S512x513 : 0 < S512x513.numel
  shapeCasts_S512x513_S512x513 : S512x513.ShapeCasts S512x513
  inb_S1x513_S1x513_0_0 : ∀ a, (![0, 0] : Fin 2 → Nat) a + S1x513.size a ≤ S1x513.size a
  h_S1x513 : 0 < S1x513.numel
  shapeCasts_S1x513_S1x513 : S1x513.ShapeCasts S1x513
  broadcasts_S1x513_S512x513 : S1x513.Broadcasts S512x513
  shapeCasts_S512x513_S8x64x513 : S512x513.ShapeCasts S8x64x513
  dot_S64x512_S512x2048_S64x2048_1_0_0_1_n_n_wf : DotDims.WF S64x512 S512x2048 S64x2048 [1] [0] [0] [1] [] []
  dot_S512x513_S513x2048_S512x2048_1_0_0_1_n_n_wf : DotDims.WF S512x513 S513x2048 S512x2048 [1] [0] [0] [1] [] []
  dot_S512x512_S512x513_S512x513_1_0_0_1_n_n_wf : DotDims.WF S512x512 S512x513 S512x513 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x513.size a ≤ S64x1024x513.size a
  hwx0_0 : ∀ i : grid0.Coords, EltTy.bits .f32 = 32 ∨ (Rect.block (s := S64x1024x513) S8x64x513.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S513x2048.size a ≤ S513x2048.size a
  hwx0_1 : ∀ i : grid0.Coords, EltTy.bits .bf16 = 32 ∨ (Rect.block (s := S513x2048) S513x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S64x2048.size a
  hwx0_2 : ∀ i : grid0.Coords, EltTy.bits .f32 = 32 ∨ (Rect.block (s := S64x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x512.size a
  hwx0_3 : ∀ i : grid0.Coords, EltTy.bits .f32 = 32 ∨ (Rect.block (s := S64x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x513.size a ≤ S512x513.size a
  hwx0_4 : ∀ i : grid0.Coords, EltTy.bits .bf16 = 32 ∨ (Rect.block (s := S512x513) S512x513.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x513.size a ≤ S1x513.size a
  hwx0_5 : ∀ i : grid0.Coords, EltTy.bits .f32 = 32 ∨ (Rect.block (s := S1x513) S1x513.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64x513.size a ≤ S64x1024x513.size a
  hwx0_6 : ∀ i : grid0.Coords, EltTy.bits .f32 = 32 ∨ (Rect.block (s := S64x1024x513) S8x64x513.size (cc0_transform_6 i) (hinb0_6 i)).WholeWords (EltTy.packing .f32)

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S512x513_S513x2048_S512x2048_1_0_0_1_n_n : DotDims S512x513 S513x2048 S512x2048 where
  lhsContracting := [1]
  rhsContracting := [0]
  lhsNonContracting := [0]
  rhsNonContracting := [1]
  lhsBatch := []
  rhsBatch := []
  wf := dot_S512x513_S513x2048_S512x2048_1_0_0_1_n_n_wf
def dot_S512x512_S512x513_S512x513_1_0_0_1_n_n : DotDims S512x512 S512x513 S512x513 where
  lhsContracting := [1]
  rhsContracting := [0]
  lhsNonContracting := [0]
  rhsNonContracting := [1]
  lhsBatch := []
  rhsBatch := []
  wf := dot_S512x512_S512x513_S512x513_1_0_0_1_n_n_wf

abbrev win0_0 : Pipeline.Window sig grid0 :=
  Pipeline.Window.ofSpec (Memref.whole main_arg0) S8x64x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S513x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x513.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x513.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S8x64x513.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x513 : Shape := ⟨3, ![64, 1024, 513]⟩
abbrev S1x64x512 : Shape := ⟨3, ![1, 64, 512]⟩
abbrev S2048x513 : Shape := ⟨2, ![2048, 513]⟩
abbrev S2048x512 : Shape := ⟨2, ![2048, 512]⟩
abbrev S2048 : Shape := ⟨1, ![2048]⟩
abbrev S513x512 : Shape := ⟨2, ![513, 512]⟩
abbrev S513 : Shape := ⟨1, ![513]⟩
abbrev S64x512 : Shape := ⟨2, ![64, 512]⟩
abbrev S64x1024x2048 : Shape := ⟨3, ![64, 1024, 2048]⟩
abbrev S512x2048 : Shape := ⟨2, ![512, 2048]⟩
abbrev S64x2048 : Shape := ⟨2, ![64, 2048]⟩
abbrev S1x2048 : Shape := ⟨2, ![1, 2048]⟩
abbrev S64x1x2048 : Shape := ⟨3, ![64, 1, 2048]⟩
abbrev S64x1024x512 : Shape := ⟨3, ![64, 1024, 512]⟩
abbrev S_ : Shape := ⟨0, ![]⟩
abbrev S64x1x512 : Shape := ⟨3, ![64, 1, 512]⟩
abbrev S1x1x513 : Shape := ⟨3, ![1, 1, 513]⟩

abbrev nBuf : Space → Nat
  | .hbm => 63
  | .vmem => 0
  | .smem => 0
  | _ => 0

abbrev bufTy : (tb : Table) → Fin (tcTables nBuf tb) → BufTy
  | .hbm, ⟨0, _⟩ => ⟨S64x1024x513, .f32⟩
  | .hbm, ⟨1, _⟩ => ⟨S1x64x512, .f32⟩
  | .hbm, ⟨2, _⟩ => ⟨S1x64x512, .f32⟩
  | .hbm, ⟨3, _⟩ => ⟨S2048x513, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S513x512, .f32⟩
  | .hbm, ⟨8, _⟩ => ⟨S513, .f32⟩
  | .hbm, ⟨9, _⟩ => ⟨S64x512, .f32⟩
  | .hbm, ⟨10, _⟩ => ⟨S64x512, .f32⟩
  | .hbm, ⟨11, _⟩ => ⟨S64x1024x2048, .f32⟩
  | .hbm, ⟨12, _⟩ => ⟨S512x2048, .f32⟩
  | .hbm, ⟨13, _⟩ => ⟨S64x2048, .f32⟩
  | .hbm, ⟨14, _⟩ => ⟨S1x2048, .f32⟩
  | .hbm, ⟨15, _⟩ => ⟨S64x2048, .f32⟩
  | .hbm, ⟨16, _⟩ => ⟨S64x2048, .f32⟩
  | .hbm, ⟨17, _⟩ => ⟨S1x2048, .f32⟩
  | .hbm, ⟨18, _⟩ => ⟨S64x2048, .f32⟩
  | .hbm, ⟨19, _⟩ => ⟨S64x2048, .f32⟩
  | .hbm, ⟨20, _⟩ => ⟨S64x1x2048, .f32⟩
  | .hbm, ⟨21, _⟩ => ⟨S64x1024x2048, .f32⟩
  | .hbm, ⟨22, _⟩ => ⟨S64x1024x2048, .f32⟩
  | .hbm, ⟨23, _⟩ => ⟨S64x1024x512, .f32⟩
  | .hbm, ⟨24, _⟩ => ⟨S64x1024x512, .f32⟩
  | .hbm, ⟨25, _⟩ => ⟨S64x1024x512, .f32⟩
  | .hbm, ⟨26, _⟩ => ⟨S64x1024x512, .f32⟩
  | .hbm, ⟨27, _⟩ => ⟨S64x1024x512, .f32⟩
  | .hbm, ⟨28, _⟩ => ⟨S64x1024x512, .f32⟩
  | .hbm, ⟨29, _⟩ => ⟨S_, .f32⟩
  | .hbm, ⟨30, _⟩ => ⟨S64x1024x512, .f32⟩
  | .hbm, ⟨31, _⟩ => ⟨S64x1024x512, .f32⟩
  | .hbm, ⟨32, _⟩ => ⟨S_, .f32⟩
  | .hbm, ⟨33, _⟩ => ⟨S64x1024x512, .f32⟩
  | .hbm, ⟨34, _⟩ => ⟨S64x1024x512, .f32⟩
  | .hbm, ⟨35, _⟩ => ⟨S64x1024x512, .f32⟩
  | .hbm, ⟨36, _⟩ => ⟨S64x1024x512, .f32⟩
  | .hbm, ⟨37, _⟩ => ⟨S_, .f32⟩
  | .hbm, ⟨38, _⟩ => ⟨S64x1024x512, .f32⟩
  | .hbm, ⟨39, _⟩ => ⟨S64x1024x512, .f32⟩
  | .hbm, ⟨40, _⟩ => ⟨S_, .f32⟩
  | .hbm, ⟨41, _⟩ => ⟨S64x1024x512, .f32⟩
  | .hbm, ⟨42, _⟩ => ⟨S64x1024x512, .f32⟩
  | .hbm, ⟨43, _⟩ => ⟨S64x1024x512, .f32⟩
  | .hbm, ⟨44, _⟩ => ⟨S64x1024x512, .f32⟩
  | .hbm, ⟨45, _⟩ => ⟨S64x1024x512, .f32⟩
  | .hbm, ⟨46, _⟩ => ⟨S_, .f32⟩
  | .hbm, ⟨47, _⟩ => ⟨S64x1024x512, .f32⟩
  | .hbm, ⟨48, _⟩ => ⟨S64x1024x512, .f32⟩
  | .hbm, ⟨49, _⟩ => ⟨S_, .f32⟩
  | .hbm, ⟨50, _⟩ => ⟨S64x1024x512, .f32⟩
  | .hbm, ⟨51, _⟩ => ⟨S64x1024x512, .f32⟩
  | .hbm, ⟨52, _⟩ => ⟨S64x1x512, .f32⟩
  | .hbm, ⟨53, _⟩ => ⟨S64x1024x512, .f32⟩
  | .hbm, ⟨54, _⟩ => ⟨S64x1024x512, .f32⟩
  | .hbm, ⟨55, _⟩ => ⟨S64x1024x512, .f32⟩
  | .hbm, ⟨56, _⟩ => ⟨S64x1024x512, .f32⟩
  | .hbm, ⟨57, _⟩ => ⟨S64x1024x512, .f32⟩
  | .hbm, ⟨58, _⟩ => ⟨S64x1024x512, .f32⟩
  | .hbm, ⟨59, _⟩ => ⟨S64x1024x513, .f32⟩
  | .hbm, ⟨60, _⟩ => ⟨S1x1x513, .f32⟩
  | .hbm, ⟨61, _⟩ => ⟨S64x1024x513, .f32⟩
  | .hbm, ⟨62, _⟩ => ⟨S64x1024x513, .f32⟩
  | _, _ => ⟨S64x1024x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  shapeCasts_S1x64x512_S64x512 : S1x64x512.ShapeCasts S64x512
  transposes_S2048x512_S512x2048_1_0 : S2048x512.Transposes [1, 0] S512x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x2048_S64x1x2048_0_2 : S64x2048.BroadcastsInDim S64x1x2048 (![0, 2] : Fin 2 → Fin S64x1x2048.rank)
  bcast_S64x1x2048_S64x1024x2048_0_1_2 : S64x1x2048.BroadcastsInDim S64x1024x2048 (![0, 1, 2] : Fin 3 → Fin S64x1024x2048.rank)
  slices_S64x1024x2048_S64x1024x512_0_0_0 : S64x1024x2048.Slices ![0, 0, 0] S64x1024x512
  slices_S64x1024x2048_S64x1024x512_0_0_512 : S64x1024x2048.Slices ![0, 0, 512] S64x1024x512
  slices_S64x1024x2048_S64x1024x512_0_0_1024 : S64x1024x2048.Slices ![0, 0, 1024] S64x1024x512
  slices_S64x1024x2048_S64x1024x512_0_0_1536 : S64x1024x2048.Slices ![0, 0, 1536] S64x1024x512
  bcast_S_S64x1024x512 : S_.BroadcastsInDim S64x1024x512 (![] : Fin 0 → Fin S64x1024x512.rank)
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  bcast_S513_S1x1x513_2 : S513.BroadcastsInDim S1x1x513 (![2] : Fin 1 → Fin S1x1x513.rank)
  bcast_S1x1x513_S64x1024x513_0_1_2 : S1x1x513.BroadcastsInDim S64x1024x513 (![0, 1, 2] : Fin 3 → Fin S64x1024x513.rank)
  dot_S64x1024x513_S2048x513_S64x1024x2048_2_1_01_0_n_n_wf : DotDims.WF S64x1024x513 S2048x513 S64x1024x2048 [2] [1] [0, 1] [0] [] []
  dot_S64x512_S512x2048_S64x2048_1_0_0_1_n_n_wf : DotDims.WF S64x512 S512x2048 S64x2048 [1] [0] [0] [1] [] []
  dot_S64x1024x512_S513x512_S64x1024x513_2_1_01_0_n_n_wf : DotDims.WF S64x1024x512 S513x512 S64x1024x513 [2] [1] [0, 1] [0] [] []

variable [Facts₀]

def dot_S64x1024x513_S2048x513_S64x1024x2048_2_1_01_0_n_n : DotDims S64x1024x513 S2048x513 S64x1024x2048 where
  lhsContracting := [2]
  rhsContracting := [1]
  lhsNonContracting := [0, 1]
  rhsNonContracting := [0]
  lhsBatch := []
  rhsBatch := []
  wf := dot_S64x1024x513_S2048x513_S64x1024x2048_2_1_01_0_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x1024x512_S513x512_S64x1024x513_2_1_01_0_n_n : DotDims S64x1024x512 S513x512 S64x1024x513 where
  lhsContracting := [2]
  rhsContracting := [1]
  lhsNonContracting := [0, 1]
  rhsNonContracting := [0]
  lhsBatch := []
  rhsBatch := []
  wf := dot_S64x1024x512_S513x512_S64x1024x513_2_1_01_0_n_n_wf

class Facts : Prop extends Facts₀ where

variable [Facts]
-- ==== Proof.Spec.lean ====
/-
  The function both programs compute, stated once over the nine argument arrays, index by index.

  One LSTM step from a fixed state (h0, c0), applied independently at every (batch b, time t), then a linear layer:
    bias[b,g]   = (Σ_k h0[0,b,k] · W_hh[g,k]) + b_ih[g] + b_hh[g]                      g < 2048
    gate[b,t,g] = (Σ_d x[b,t,d] · W_ih[g,d]) + bias[b,g]
    hid[b,t,h]  = σ(gate[b,t,1536+h]) · tanh( σ(gate[b,t,512+h]) · c0[0,b,h] + σ(gate[b,t,h]) · tanh(gate[b,t,1024+h]) )
    out[b,t,o]  = (Σ_h hid[b,t,h] · fc_w[o,h]) + fc_b[o]
  with σ the logistic function, every operation the exact one on the extended reals. The sums and products are
  associated exactly as written here on BOTH sides, so no law of the extended reals beyond re-indexing a finite sum
  is used anywhere, and finiteness of the inputs is never needed.
-/
import Idealize.ShloMosaic.PureOps.Ideal
import Idealize.ShloMosaic.Lib.ValueIdx

noncomputable section

namespace Cert.LstmSpec

open Idealize.ShloMosaic Idealize.ShloMosaic.ValueIdx

/-- The four gate columns of hidden unit h inside the 2048 gate columns: input, forget, cell, output. -/
def colI (h : Fin 512) : Fin 2048 := ⟨h.val, by have := h.isLt; omega⟩
def colF (h : Fin 512) : Fin 2048 := ⟨512 + h.val, by have := h.isLt; omega⟩
def colG (h : Fin 512) : Fin 2048 := ⟨1024 + h.val, by have := h.isLt; omega⟩
def colO (h : Fin 512) : Fin 2048 := ⟨1536 + h.val, by have := h.isLt; omega⟩

/-- One LSTM cell update at one position, from that position's 2048 gate pre-activations gt and the
    previous cell state c, at hidden unit h: o · tanh(f · c + i · g). -/
def cell (gt : Fin 2048 → EReal) (c : Fin 512 → EReal) (h : Fin 512) : EReal :=
  Ideal.logistic (gt (colO h)) * Ideal.tanh (Ideal.logistic (gt (colF h)) * c h + Ideal.logistic (gt (colI h)) * Ideal.tanh (gt (colG h)))

/-- The recurrent half of the gate pre-activations, which does not depend on time. -/
def bias (h0 : (⟨3, ![1, 64, 512]⟩ : Shape).Idx → EReal) (Whh : (⟨2, ![2048, 512]⟩ : Shape).Idx → EReal)
    (bih bhh : (⟨1, ![2048]⟩ : Shape).Idx → EReal) (b : Fin 64) (g : Fin 2048) : EReal :=
  (∑ k : Fin 512, h0 (ix3 0 b k) * Whh (ix2 g k)) + bih (ix1 g) + bhh (ix1 g)

/-- The gate pre-activations at (b, t). -/
def gate (x : (⟨3, ![64, 1024, 513]⟩ : Shape).Idx → EReal) (Wih : (⟨2, ![2048, 513]⟩ : Shape).Idx → EReal)
    (h0 : (⟨3, ![1, 64, 512]⟩ : Shape).Idx → EReal) (Whh : (⟨2, ![2048, 512]⟩ : Shape).Idx → EReal)
    (bih bhh : (⟨1, ![2048]⟩ : Shape).Idx → EReal) (b : Fin 64) (t : Fin 1024) (g : Fin 2048) : EReal :=
  (∑ d : Fin 513, x (ix3 b t d) * Wih (ix2 g d)) + bias h0 Whh bih bhh b g

/-- The new hidden state at (b, t). -/
def hid (x : (⟨3, ![64, 1024, 513]⟩ : Shape).Idx → EReal) (h0 c0 : (⟨3, ![1, 64, 512]⟩ : Shape).Idx → EReal)
    (Wih : (⟨2, ![2048, 513]⟩ : Shape).Idx → EReal) (Whh : (⟨2, ![2048, 512]⟩ : Shape).Idx → EReal)
    (bih bhh : (⟨1, ![2048]⟩ : Shape).Idx → EReal) (b : Fin 64) (t : Fin 1024) (h : Fin 512) : EReal :=
  cell (gate x Wih h0 Whh bih bhh b t) (fun h' => c0 (ix3 0 b h')) h

/-- The output at (b, t, o). -/
def out (x : (⟨3, ![64, 1024, 513]⟩ : Shape).Idx → EReal) (h0 c0 : (⟨3, ![1, 64, 512]⟩ : Shape).Idx → EReal)
    (Wih : (⟨2, ![2048, 513]⟩ : Shape).Idx → EReal) (Whh : (⟨2, ![2048, 512]⟩ : Shape).Idx → EReal)
    (bih bhh : (⟨1, ![2048]⟩ : Shape).Idx → EReal) (fcw : (⟨2, ![513, 512]⟩ : Shape).Idx → EReal)
    (fcb : (⟨1, ![513]⟩ : Shape).Idx → EReal) (b : Fin 64) (t : Fin 1024) (o : Fin 513) : EReal :=
  (∑ h : Fin 512, hid x h0 c0 Wih Whh bih bhh b t h * fcw (ix2 o h)) + fcb (ix1 o)

/-- The whole result array, as one function of the nine argument arrays (in the programs' argument order). -/
def G (x : (⟨3, ![64, 1024, 513]⟩ : Shape).Idx → EReal) (h0 c0 : (⟨3, ![1, 64, 512]⟩ : Shape).Idx → EReal)
    (Wih : (⟨2, ![2048, 513]⟩ : Shape).Idx → EReal) (Whh : (⟨2, ![2048, 512]⟩ : Shape).Idx → EReal)
    (bih bhh : (⟨1, ![2048]⟩ : Shape).Idx → EReal) (fcw : (⟨2, ![513, 512]⟩ : Shape).Idx → EReal)
    (fcb : (⟨1, ![513]⟩ : Shape).Idx → EReal) : (⟨3, ![64, 1024, 513]⟩ : Shape).Idx → EReal :=
  fun i => out x h0 c0 Wih Whh bih bhh fcw fcb (i 0) (i 1) (i 2)

theorem G_ix3 (x : (⟨3, ![64, 1024, 513]⟩ : Shape).Idx → EReal) (h0 c0 : (⟨3, ![1, 64, 512]⟩ : Shape).Idx → EReal)
    (Wih : (⟨2, ![2048, 513]⟩ : Shape).Idx → EReal) (Whh : (⟨2, ![2048, 512]⟩ : Shape).Idx → EReal)
    (bih bhh : (⟨1, ![2048]⟩ : Shape).Idx → EReal) (fcw : (⟨2, ![513, 512]⟩ : Shape).Idx → EReal)
    (fcb : (⟨1, ![513]⟩ : Shape).Idx → EReal) (b : Fin 64) (t : Fin 1024) (o : Fin 513) :
    G x h0 c0 Wih Whh bih bhh fcw fcb (ix3 b t o) = out x h0 c0 Wih Whh bih bhh fcw fcb b t o := rfl

/-- The word 0x3F800000 is the float 1.0: the extended real 1. -/
theorem ofBits_one : Ideal.ofBits .f32 0x3F800000#32 = 1 := by
  simp [Ideal.ofBits, Ideal.ieee, -EReal.coe_mul]; norm_num

/-- The logistic function spelt with the float one: 1 / (1 + e^(-v)). -/
theorem logistic_spelt (v : EReal) :
    Ideal.div (Ideal.ofBits .f32 0x3F800000#32) (Ideal.ofBits .f32 0x3F800000#32 + Ideal.exp (-v)) = Ideal.logistic v := by
  rw [ofBits_one]; rfl

end Cert.LstmSpec

end
-- ==== Proof.RefIsSpec.lean ====
/-
  The reference program's result, read one operation at a time down to the argument arrays, is the specified
  function: each stage at an index (b, t, ·) is the matching line of the specification. The reference spells the
  logistic function as 1 / (1 + e^(-v)) with the float literal 1.0; that is the logistic function itself. The only
  arithmetic is on indices: a reshape of [1,64,512] to [64,512] keeps (b, k) at (0, b, k), and slicing 512 gate
  columns at offset 0 / 512 / 1024 / 1536 selects the input / forget / cell / output columns.
-/
import proofs.«177777_j21423296873105_2_alg».proof.Proof.Gen.ReferenceIdeal.Read
import proofs.«177777_j21423296873105_2_alg».proof.Proof.Spec

noncomputable section

namespace Cert.ReferenceIdeal.RefValue

open Cert.ReferenceIdeal Cert.ReferenceIdeal.Read Idealize.ShloMosaic Idealize.ShloMosaic.ValueIdx Cert.LstmSpec

variable (x0 : (⟨S64x1024x513, .f32⟩ : BufTy).Contents (Elt Ideal))
  (x1 x2 : (⟨S1x64x512, .f32⟩ : BufTy).Contents (Elt Ideal))
  (x3 : (⟨S2048x513, .f32⟩ : BufTy).Contents (Elt Ideal))
  (x4 : (⟨S2048x512, .f32⟩ : BufTy).Contents (Elt Ideal))
  (x5 x6 : (⟨S2048, .f32⟩ : BufTy).Contents (Elt Ideal))
  (x7 : (⟨S513x512, .f32⟩ : BufTy).Contents (Elt Ideal))
  (x8 : (⟨S513, .f32⟩ : BufTy).Contents (Elt Ideal))

/-! ## Index equations -/

/-- Row b, column k of the reshaped state is entry (0, b, k) of the state as given. -/
theorem idx_state (b : Fin 64) (k : Fin 512) : idx_main_v0 (ix2 b k) = ix3 (0 : Fin 1) b k := by
  funext a; apply Fin.ext
  match a with
  | ⟨0, _⟩ => rfl
  | ⟨1, _⟩ => show (b.val * 512 + k.val) / 512 % 64 = b.val; have := b.isLt; have := k.isLt; omega
  | ⟨2, _⟩ => show (b.val * 512 + k.val) % 512 = k.val; have := k.isLt; omega

theorem idx_state' (b : Fin 64) (k : Fin 512) : idx_main_v1 (ix2 b k) = ix3 (0 : Fin 1) b k := idx_state b k

theorem lidx4 (b : Fin 64) (g : Fin 2048) (k : Fin 512) : lidx_main_v4 (ix2 b g) k = ix2 b k :=
  funext fun a => Fin.ext (by match a with | ⟨0, _⟩ => rfl | ⟨1, _⟩ => rfl)

theorem ridx4 (b : Fin 64) (g : Fin 2048) (k : Fin 512) : idx_main_v3 (ridx_main_v4 (ix2 b g) k) = ix2 g k :=
  funext fun a => Fin.ext (by match a with | ⟨0, _⟩ => rfl | ⟨1, _⟩ => rfl)

theorem idx_bih (b : Fin 64) (g : Fin 2048) : idx_main_v5 (idx_main_v6 (ix2 b g)) = ix1 g :=
  funext fun a => Fin.ext (by match a with | ⟨0, _⟩ => rfl)

theorem idx_bhh (b : Fin 64) (g : Fin 2048) : idx_main_v8 (idx_main_v9 (ix2 b g)) = ix1 g :=
  funext fun a => Fin.ext (by match a with | ⟨0, _⟩ => rfl)

theorem lidx2 (b : Fin 64) (t : Fin 1024) (g : Fin 2048) (d : Fin 513) : lidx_main_v2 (ix3 b t g) d = ix3 b t d :=
  funext fun a => Fin.ext (by match a with | ⟨0, _⟩ => rfl | ⟨1, _⟩ => rfl | ⟨2, _⟩ => rfl)

theorem ridx2 (b : Fin 64) (t : Fin 1024) (g : Fin 2048) (d : Fin 513) : ridx_main_v2 (ix3 b t g) d = ix2 g d :=
  funext fun a => Fin.ext (by match a with | ⟨0, _⟩ => rfl | ⟨1, _⟩ => rfl)

theorem idx_bias (b : Fin 64) (t : Fin 1024) (g : Fin 2048) : idx_main_v11 (idx_main_v12 (ix3 b t g)) = ix2 b g :=
  funext fun a => Fin.ext (by match a with | ⟨0, _⟩ => rfl | ⟨1, _⟩ => rfl)

theorem idx_colI (b : Fin 64) (t : Fin 1024) (h : Fin 512) : idx_main_v14 (ix3 b t h) = ix3 b t (colI h) :=
  funext fun a => Fin.ext (by match a with | ⟨0, _⟩ => rfl | ⟨1, _⟩ => rfl | ⟨2, _⟩ => rfl)

theorem idx_colF (b : Fin 64) (t : Fin 1024) (h : Fin 512) : idx_main_v15 (ix3 b t h) = ix3 b t (colF h) :=
  funext fun a => Fin.ext (by match a with | ⟨0, _⟩ => rfl | ⟨1, _⟩ => rfl | ⟨2, _⟩ => rfl)

theorem idx_colG (b : Fin 64) (t : Fin 1024) (h : Fin 512) : idx_main_v16 (ix3 b t h) = ix3 b t (colG h) :=
  funext fun a => Fin.ext (by match a with | ⟨0, _⟩ => rfl | ⟨1, _⟩ => rfl | ⟨2, _⟩ => rfl)

theorem idx_colO (b : Fin 64) (t : Fin 1024) (h : Fin 512) : idx_main_v17 (ix3 b t h) = ix3 b t (colO h) :=
  funext fun a => Fin.ext (by match a with | ⟨0, _⟩ => rfl | ⟨1, _⟩ => rfl | ⟨2, _⟩ => rfl)

theorem idx_cell (b : Fin 64) (t : Fin 1024) (h : Fin 512) : idx_main_v37 (idx_main_v38 (ix3 b t h)) = ix2 b h :=
  funext fun a => Fin.ext (by match a with | ⟨0, _⟩ => rfl | ⟨1, _⟩ => rfl)

theorem lidx44 (b : Fin 64) (t : Fin 1024) (o : Fin 513) (h : Fin 512) : lidx_main_v44 (ix3 b t o) h = ix3 b t h :=
  funext fun a => Fin.ext (by match a with | ⟨0, _⟩ => rfl | ⟨1, _⟩ => rfl | ⟨2, _⟩ => rfl)

theorem ridx44 (b : Fin 64) (t : Fin 1024) (o : Fin 513) (h : Fin 512) : ridx_main_v44 (ix3 b t o) h = ix2 o h :=
  funext fun a => Fin.ext (by match a with | ⟨0, _⟩ => rfl | ⟨1, _⟩ => rfl)

theorem idx_fcb (b : Fin 64) (t : Fin 1024) (o : Fin 513) : idx_main_v45 (idx_main_v46 (ix3 b t o)) = ix1 o :=
  funext fun a => Fin.ext (by match a with | ⟨0, _⟩ => rfl)

/-! ## The stages -/

/-- The time-independent half of the gates. -/
theorem bias_apply (b : Fin 64) (g : Fin 2048) :
    val_main_v10 (F := Ideal) x1 x4 x5 x6 (ix2 b g) = bias x1 x4 x5 x6 b g := by
  rw [val_main_v10_apply, val_main_v7_apply, val_main_v4_apply, val_main_v6_apply, val_main_v5_apply,
    val_main_v9_apply, val_main_v8_apply, idx_bih, idx_bhh]
  simp only [lidx4, val_main_v0_apply, idx_state, val_main_v3_apply, ridx4]
  rfl

/-- The gate pre-activations. -/
theorem gate_apply (b : Fin 64) (t : Fin 1024) (g : Fin 2048) :
    val_main_v13 (F := Ideal) x0 x1 x3 x4 x5 x6 (ix3 b t g) = gate x0 x3 x1 x4 x5 x6 b t g := by
  rw [val_main_v13_apply, val_main_v2_apply, val_main_v12_apply, val_main_v11_apply, idx_bias, bias_apply]
  simp only [lidx2, ridx2]
  rfl

/-- The three logistic gates and the cell candidate, each from its 512 columns. -/
theorem gateI_apply (b : Fin 64) (t : Fin 1024) (h : Fin 512) :
    val_main_v23 (F := Ideal) x0 x1 x3 x4 x5 x6 (ix3 b t h) = Ideal.logistic (gate x0 x3 x1 x4 x5 x6 b t (colI h)) := by
  rw [val_main_v23_apply, val_main_v22_apply, val_main_cst_0_apply, val_main_v21_apply, val_main_v20_apply,
    val_main_cst_apply, val_main_v19_apply, val_main_v18_apply, val_main_v14_apply, idx_colI, gate_apply]
  exact logistic_spelt _

theorem gateF_apply (b : Fin 64) (t : Fin 1024) (h : Fin 512) :
    val_main_v29 (F := Ideal) x0 x1 x3 x4 x5 x6 (ix3 b t h) = Ideal.logistic (gate x0 x3 x1 x4 x5 x6 b t (colF h)) := by
  rw [val_main_v29_apply, val_main_v28_apply, val_main_cst_2_apply, val_main_v27_apply, val_main_v26_apply,
    val_main_cst_1_apply, val_main_v25_apply, val_main_v24_apply, val_main_v15_apply, idx_colF, gate_apply]
  exact logistic_spelt _

theorem gateO_apply (b : Fin 64) (t : Fin 1024) (h : Fin 512) :
    val_main_v36 (F := Ideal) x0 x1 x3 x4 x5 x6 (ix3 b t h) = Ideal.logistic (gate x0 x3 x1 x4 x5 x6 b t (colO h)) := by
  rw [val_main_v36_apply, val_main_v35_apply, val_main_cst_4_apply, val_main_v34_apply, val_main_v33_apply,
    val_main_cst_3_apply, val_main_v32_apply, val_main_v31_apply, val_main_v17_apply, idx_colO, gate_apply]
  exact logistic_spelt _

theorem gateG_apply (b : Fin 64) (t : Fin 1024) (h : Fin 512) :
    val_main_v30 (F := Ideal) x0 x1 x3 x4 x5 x6 (ix3 b t h) = Ideal.tanh (gate x0 x3 x1 x4 x5 x6 b t (colG h)) := by
  rw [val_main_v30_apply, val_main_v16_apply, idx_colG, gate_apply]
  rfl

/-- The new hidden state. -/
theorem hid_apply (b : Fin 64) (t : Fin 1024) (h : Fin 512) :
    val_main_v43 (F := Ideal) x0 x1 x2 x3 x4 x5 x6 (ix3 b t h) = hid x0 x1 x2 x3 x4 x5 x6 b t h := by
  rw [val_main_v43_apply, gateO_apply, val_main_v42_apply, val_main_v41_apply, val_main_v39_apply, gateF_apply,
    val_main_v38_apply, val_main_v37_apply, idx_cell, val_main_v1_apply, idx_state', val_main_v40_apply, gateI_apply,
    gateG_apply]
  rfl

/-- The result at (b, t, o). -/
theorem out_apply (b : Fin 64) (t : Fin 1024) (o : Fin 513) :
    val_main_v47 (F := Ideal) x0 x1 x2 x3 x4 x5 x6 x7 x8 (ix3 b t o) = out x0 x1 x2 x3 x4 x5 x6 x7 x8 b t o := by
  rw [val_main_v47_apply, val_main_v44_apply, val_main_v46_apply, val_main_v45_apply, idx_fcb]
  simp only [lidx44, ridx44, hid_apply]
  rfl

/-- The reference's whole result is the specified function of its arguments. -/
theorem result_eq : val_main_v47 (F := Ideal) x0 x1 x2 x3 x4 x5 x6 x7 x8 = G x0 x1 x2 x3 x4 x5 x6 x7 x8 := by
  funext i
  obtain ⟨b, t, o, rfl⟩ : ∃ (b : Fin 64) (t : Fin 1024) (o : Fin 513), i = ix3 b t o := ⟨i 0, i 1, i 2, eq_ix3 i⟩
  rw [out_apply, G_ix3]

end Cert.ReferenceIdeal.RefValue

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.KernelHost.lean ====
/-
  What the kernel's region finds in the arrays its windows stage, read at an index.

  Before the region the kernel's program computes, with plain host operations on the argument arrays: both weight
  matrices transposed (and re-typed, which is the identity on exact values), the recurrent half of the gates
  bias = h0[0] · W_hhᵀ + b_ih + b_hh, the initial cell state and the output bias re-shaped. Entry by entry:
    window 1 [513, 2048]  at (d, g) is W_ih[g, d]
    window 2 [64, 2048]   at (b, g) is bias[b, g] of the specification
    window 3 [64, 512]    at (b, h) is c0[0, b, h]
    window 4 [512, 513]   at (h, o) is fc_w[o, h]
    window 5 [1, 513]     at (0, o) is fc_b[o]
  Window 0 is the input array itself.
-/
import proofs.«177777_j21423296873105_2_alg».proof.Proof.Gen.KernelIdeal.Frame
import proofs.«177777_j21423296873105_2_alg».proof.Proof.Spec
import proofs.«177777_j21423296873105_2_alg».proof.Proof.LibPlainContract
import Idealize.ShloMosaic.Lib.StableHlo.Run
import Idealize.ShloMosaic.Lib.ValueLayout
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.LstmSpec Cert.LibPlainContract

variable (m : (ℓ : Loc nD τ sig) → Buf (Elt Ideal) ℓ) (c : Dev nD)

/-- A vector of 2048 gate biases broadcast to every batch row reads its own entry g at (b, g). -/
theorem bcast_row (x : S2048.Idx → EReal) (b : Fin 64) (g : Fin 2048) :
    broadcastInDim S64x2048 ![0, 1] bcast_S1x2048_S64x2048_0_1 (broadcastInDim S1x2048 ![1] bcast_S2048_S1x2048_1 x) (ix2 b g)
      = x (ix1 g) :=
  (broadcastInDim_apply _ bcast_S1x2048_S64x2048_0_1 _ (ix2 b g) (ix2 (0 : Fin 1) g) (fun a => match a with
    | ⟨0, _⟩ => by show 0 = if (1 : Nat) = 1 then 0 else b.val; rw [if_pos rfl]
    | ⟨1, _⟩ => by show g.val = if (2048 : Nat) = 1 then 0 else g.val; rw [if_neg (by decide)])).trans
  (broadcastInDim_apply _ bcast_S2048_S1x2048_1 x (ix2 (0 : Fin 1) g) (ix1 g) (fun a => match a with
    | ⟨0, _⟩ => by show g.val = if (2048 : Nat) = 1 then 0 else g.val; rw [if_neg (by decide)]))

/-- Window 1's array is W_ih transposed. -/
theorem wih_apply (d : Fin 513) (g : Fin 2048) :
    V m c main_v11 (ix2 d g) = m ((c : Thread nD τ).loc main_arg3) (ix2 g d) := by
  have e : (V m c main_v11 : S513x2048.Idx → EReal)
      = (truncf .bf16 (transpose S513x2048 [1, 0] (m ((c : Thread nD τ).loc main_arg3)) transposes_S2048x513_S513x2048_1_0) bitsLt_bf16_f32 : FVec Ideal S513x2048 .bf16) := by
    dsimp only [V, hostOps0]; after_results <;> rfl
  exact (congrFun e (ix2 d g)).trans (transpose_ix2_apply _ transposes_S2048x513_S513x2048_1_0 d g)

/-- Window 4's array is fc_w transposed. -/
theorem fcw_apply (h : Fin 512) (o : Fin 513) :
    V m c main_v13 (ix2 h o) = m ((c : Thread nD τ).loc main_arg7) (ix2 o h) := by
  have e : (V m c main_v13 : S512x513.Idx → EReal)
      = (truncf .bf16 (transpose S512x513 [1, 0] (m ((c : Thread nD τ).loc main_arg7)) transposes_S513x512_S512x513_1_0) bitsLt_bf16_f32 : FVec Ideal S512x513 .bf16) := by
    dsimp only [V, hostOps0]; after_results <;> rfl
  exact (congrFun e (ix2 h o)).trans (transpose_ix2_apply _ transposes_S513x512_S512x513_1_0 h o)

/-- Window 3's array is the initial cell state with its leading unit axis dropped. -/
theorem c0_apply (b : Fin 64) (h : Fin 512) :
    V m c main_v1 (ix2 b h) = m ((c : Thread nD τ).loc main_arg2) (ix3 (0 : Fin 1) b h) := by
  have e : (V m c main_v1 : S64x512.Idx → EReal)
      = shapeCast S64x512 (m ((c : Thread nD τ).loc main_arg2)) shapeCasts_S1x64x512_S64x512 := by
    dsimp only [V, hostOps0]; after_results <;> rfl
  exact (congrFun e (ix2 b h)).trans (shapeCast_1ab_ab_apply _ shapeCasts_S1x64x512_S64x512 b h)

/-- Window 5's array is the output bias as one row. -/
theorem fcb_apply (u : Fin 1) (o : Fin 513) :
    V m c main_v14 (ix2 u o) = m ((c : Thread nD τ).loc main_arg8) (ix1 o) := by
  have e : (V m c main_v14 : S1x513.Idx → EReal)
      = shapeCast S1x513 (m ((c : Thread nD τ).loc main_arg8)) shapeCasts_S513_S1x513 := by
    dsimp only [V, hostOps0]; after_results <;> rfl
  exact (congrFun e (ix2 u o)).trans (shapeCast_a_1a_apply _ shapeCasts_S513_S1x513 u o)

/-- Window 2's array is the recurrent half of the gates. -/
theorem bias_apply (b : Fin 64) (g : Fin 2048) :
    V m c main_v9 (ix2 b g) = bias (m ((c : Thread nD τ).loc main_arg1)) (m ((c : Thread nD τ).loc main_arg4))
      (m ((c : Thread nD τ).loc main_arg5)) (m ((c : Thread nD τ).loc main_arg6)) b g := by
  have e : (V m c main_v9 : S64x2048.Idx → EReal)
      = (addf (addf (Host.dotGeneral dot_S64x512_S512x2048_S64x2048_1_0_0_1_n_n none
            (shapeCast S64x512 (m ((c : Thread nD τ).loc main_arg1)) shapeCasts_S1x64x512_S64x512 : FVec Ideal S64x512 .f32)
            (transpose S512x2048 [1, 0] (m ((c : Thread nD τ).loc main_arg4)) transposes_S2048x512_S512x2048_1_0 : FVec Ideal S512x2048 .f32))
          (broadcastInDim S64x2048 ![0, 1] bcast_S1x2048_S64x2048_0_1 (broadcastInDim S1x2048 ![1] bcast_S2048_S1x2048_1 (m ((c : Thread nD τ).loc main_arg5)))))
        (broadcastInDim S64x2048 ![0, 1] bcast_S1x2048_S64x2048_0_1 (broadcastInDim S1x2048 ![1] bcast_S2048_S1x2048_1 (m ((c : Thread nD τ).loc main_arg6)))) : FVec Ideal S64x2048 .f32) := by
    dsimp only [V, hostOps0]; after_results <;> rfl
  refine (congrFun e (ix2 b g)).trans ?_
  rw [addf_apply, addf_apply, bcast_row, bcast_row]
  unfold bias
  refine congrArg (· + m ((c : Thread nD τ).loc main_arg5) (ix1 g) + m ((c : Thread nD τ).loc main_arg6) (ix1 g)) ?_
  refine (dotGeneral_plain_apply 64 512 2048 none .single _ _ b g).trans ?_
  refine Finset.sum_congr rfl fun k _ => ?_
  rw [shapeCast_1ab_ab_apply, transpose_ix2_apply]

end Cert.KernelIdeal.HostValue

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.Payload.lean ====
/-
  The kernel body's arithmetic at one entry of its output block.

  At a grid point the body holds an input block x [8, 64, 513] (8 batch rows, 64 time steps), the transposed weights
  w [513, 2048] and f [512, 513], the bias rows bs [8, 2048] and cell rows cs [8, 512] of its 8 batch rows, and the
  output bias ob [1, 513]. It flattens the 8 × 64 positions to 512 rows (position (p, q) is row 64·p + q), takes one
  matrix product for all gates, adds the bias of row p, applies the cell update to the four 512-column groups, takes a
  second matrix product, adds ob, and un-flattens. So entry (p, q, o) of what it stores is
    (Σ_h cell(gates at (p, q), cs[p, ·]) h · f[h, o]) + ob[0, o],   gates at (p, q) = g ↦ (Σ_d x[p, q, d] · w[d, g]) + bs[p, g].
-/
import proofs.«177777_j21423296873105_2_alg».proof.Proof.Gen.KernelIdeal.Skeleton
import proofs.«177777_j21423296873105_2_alg».proof.Proof.Spec
import proofs.«177777_j21423296873105_2_alg».proof.Proof.LibPlainContract
import proofs.«177777_j21423296873105_2_alg».proof.Proof.LibLayout3
import Idealize.ShloMosaic.Lib.ValueLayout
import Idealize.ShloMosaic.PureOps.Ideal

noncomputable section

namespace Cert.KernelIdeal.BodyValue

open Cert.KernelIdeal Cert.KernelIdeal.Gen Idealize.ShloMosaic Idealize.ShloMosaic.ValueIdx
open Cert.LstmSpec Cert.LibPlainContract Cert.LibLayout3

/-- Position (p, q) of a block is row 64·p + q of its 512 flattened rows. -/
def row (p : Fin 8) (q : Fin 64) : Fin 512 := ⟨p.val * 64 + q.val, by have := p.isLt; have := q.isLt; omega⟩

variable (x : FVec Ideal S8x64x513 .f32) (w : FVec Ideal S513x2048 .bf16) (bs : FVec Ideal S8x2048 .f32)
  (cs : FVec Ideal S8x512 .f32) (f : FVec Ideal S512x513 .bf16) (ob : FVec Ideal S1x513 .f32)

/-- The block's gate pre-activations: the flattened input block times w, un-flattened, plus each batch row's bias
    at every time step. -/
def gatesB : FVec Ideal S8x64x2048 .f32 :=
  addf
    (shapeCast S8x64x2048
      (matmul dot_S512x513_S513x2048_S512x2048_1_0_0_1_n_n none
        (truncf .bf16 (shapeCast S512x513 x shapeCasts_S8x64x513_S512x513) bitsLt_bf16_f32)
        (shapeCast S513x2048 w shapeCasts_S513x2048_S513x2048)
        (constant (F := Ideal) S512x2048 .f32 0x00000000#32))
      shapeCasts_S512x2048_S8x64x2048)
    (broadcastTo S8x64x2048
      (shapeCast S8x1x2048 (shapeCast S8x2048 bs shapeCasts_S8x2048_S8x2048) shapeCasts_S8x2048_S8x1x2048)
      broadcasts_S8x1x2048_S8x64x2048)

theorem gatesB_apply (p : Fin 8) (q : Fin 64) (g : Fin 2048) :
    gatesB x w bs (ix3 p q g) = (∑ d : Fin 513, x (ix3 p q d) * w (ix2 d g)) + bs (ix2 p g) := by
  unfold gatesB
  rw [addf_apply]
  refine congrArg₂ (· + ·) ?_ ?_
  · refine (shapeCast_mc_abc_apply _ shapeCasts_S512x2048_S8x64x2048 p q g (row p q) rfl).trans ?_
    refine (matmul_plain_apply 512 513 2048 none _ _ (row p q) g).trans ?_
    refine Finset.sum_congr rfl fun d _ => ?_
    rw [truncf_apply, shapeCast_abc_mc_apply x shapeCasts_S8x64x513_S512x513 p q d (row p q) rfl, shapeCast_self]
  · refine (broadcastTo_a1c_abc_apply _ broadcasts_S8x1x2048_S8x64x2048 p q g).trans ?_
    rw [shapeCast_ac_a1c_apply, shapeCast_self]

/-- The four 512-column groups of a gate array, read at hidden unit h. -/
theorem sliceI_apply (X : FVec Ideal S8x64x2048 .f32) (p : Fin 8) (q : Fin 64) (h : Fin 512) :
    extractStridedSlice S8x64x512 ![0, 0, 0] X slices_S8x64x2048_o0_0_0_S8x64x512 (ix3 p q h) = X (ix3 p q (colI h)) :=
  slice3_axis2_apply 0 X slices_S8x64x2048_o0_0_0_S8x64x512 p q h (colI h) (Nat.zero_add _).symm
theorem sliceF_apply (X : FVec Ideal S8x64x2048 .f32) (p : Fin 8) (q : Fin 64) (h : Fin 512) :
    extractStridedSlice S8x64x512 ![0, 0, 512] X slices_S8x64x2048_o0_0_512_S8x64x512 (ix3 p q h) = X (ix3 p q (colF h)) :=
  slice3_axis2_apply 512 X slices_S8x64x2048_o0_0_512_S8x64x512 p q h (colF h) rfl
theorem sliceG_apply (X : FVec Ideal S8x64x2048 .f32) (p : Fin 8) (q : Fin 64) (h : Fin 512) :
    extractStridedSlice S8x64x512 ![0, 0, 1024] X slices_S8x64x2048_o0_0_1024_S8x64x512 (ix3 p q h) = X (ix3 p q (colG h)) :=
  slice3_axis2_apply 1024 X slices_S8x64x2048_o0_0_1024_S8x64x512 p q h (colG h) rfl
theorem sliceO_apply (X : FVec Ideal S8x64x2048 .f32) (p : Fin 8) (q : Fin 64) (h : Fin 512) :
    extractStridedSlice S8x64x512 ![0, 0, 1536] X slices_S8x64x2048_o0_0_1536_S8x64x512 (ix3 p q h) = X (ix3 p q (colO h)) :=
  slice3_axis2_apply 1536 X slices_S8x64x2048_o0_0_1536_S8x64x512 p q h (colO h) rfl

/-- The block's new hidden state: the cell update on the four column groups, with each batch row's cell state at
    every time step. -/
def hidB : FVec Ideal S8x64x512 .f32 :=
  mulf (logistic (extractStridedSlice S8x64x512 ![0, 0, 1536] (gatesB x w bs) slices_S8x64x2048_o0_0_1536_S8x64x512))
    (tanh (addf
      (mulf (logistic (extractStridedSlice S8x64x512 ![0, 0, 512] (gatesB x w bs) slices_S8x64x2048_o0_0_512_S8x64x512))
        (broadcastTo S8x64x512
          (shapeCast S8x1x512 (shapeCast S8x512 cs shapeCasts_S8x512_S8x512) shapeCasts_S8x512_S8x1x512)
          broadcasts_S8x1x512_S8x64x512))
      (mulf (logistic (extractStridedSlice S8x64x512 ![0, 0, 0] (gatesB x w bs) slices_S8x64x2048_o0_0_0_S8x64x512))
        (tanh (extractStridedSlice S8x64x512 ![0, 0, 1024] (gatesB x w bs) slices_S8x64x2048_o0_0_1024_S8x64x512)))))

theorem hidB_apply (p : Fin 8) (q : Fin 64) (h : Fin 512) :
    hidB x w bs cs (ix3 p q h)
      = cell (fun g => (∑ d : Fin 513, x (ix3 p q d) * w (ix2 d g)) + bs (ix2 p g)) (fun h' => cs (ix2 p h')) h := by
  unfold hidB
  show Ideal.logistic _ * Ideal.tanh (Ideal.logistic _ * _ + Ideal.logistic _ * Ideal.tanh _) = _
  rw [sliceO_apply, sliceF_apply, sliceI_apply, sliceG_apply, broadcastTo_a1c_abc_apply, shapeCast_ac_a1c_apply,
    shapeCast_self]
  simp only [gatesB_apply]
  rfl

/-- The body's payload is the second product of the new hidden state, plus the output bias, un-flattened. -/
theorem pay_eq : k0_pay1 (F := Ideal) x w bs cs f ob
    = shapeCast S8x64x513
        (addf
          (matmul dot_S512x512_S512x513_S512x513_1_0_0_1_n_n none
            (truncf .bf16 (shapeCast S512x512 (hidB x w bs cs) shapeCasts_S8x64x512_S512x512) bitsLt_bf16_f32)
            (shapeCast S512x513 f shapeCasts_S512x513_S512x513)
            (constant (F := Ideal) S512x513 .f32 0x00000000#32))
          (broadcastTo S512x513 (shapeCast S1x513 ob shapeCasts_S1x513_S1x513) broadcasts_S1x513_S512x513))
        shapeCasts_S512x513_S8x64x513 := rfl

/-- The payload at entry (p, q, o) of the block. -/
theorem pay_apply (p : Fin 8) (q : Fin 64) (o : Fin 513) :
    k0_pay1 (F := Ideal) x w bs cs f ob (ix3 p q o)
      = (∑ h : Fin 512, cell (fun g => (∑ d : Fin 513, x (ix3 p q d) * w (ix2 d g)) + bs (ix2 p g))
            (fun h' => cs (ix2 p h')) h * f (ix2 h o)) + ob (ix2 (0 : Fin 1) o) := by
  rw [pay_eq]
  refine (shapeCast_mc_abc_apply _ shapeCasts_S512x513_S8x64x513 p q o (row p q) rfl).trans ?_
  rw [addf_apply]
  refine congrArg₂ (· + ·) ?_ ?_
  · refine (matmul_plain_apply 512 512 513 none _ _ (row p q) o).trans ?_
    refine Finset.sum_congr rfl fun h _ => ?_
    rw [truncf_apply, shapeCast_abc_mc_apply (hidB x w bs cs) shapeCasts_S8x64x512_S512x512 p q h (row p q) rfl,
      shapeCast_self, hidB_apply]
  · rw [broadcastTo_1b_ab_apply, shapeCast_self]

end Cert.KernelIdeal.BodyValue

end
-- ==== Proof.Blocks.lean ====
/-
  From what each grid point writes back to the whole result array.

  The grid has 8 × 16 points; point (bi, ti) works on batch rows 8·bi … 8·bi+7 and time steps 64·ti … 64·ti+63. Its
  input block is that box of the input array, its bias and cell rows are rows 8·bi … 8·bi+7 of theirs, and the
  weight matrices and the output bias are staged whole. Reading every block where it sits in its array, the body's
  payload at entry (p, q, o) of the block is the specified function at (8·bi + p, 64·ti + q, o): the block the point
  writes back is that block of the specified array. The 128 output blocks tile the [64, 1024, 513] result, so after
  the run the result array is the specified function everywhere.
-/
import proofs.«177777_j21423296873105_2_alg».proof.Proof.Gen.KernelIdeal.Value
import proofs.«177777_j21423296873105_2_alg».proof.Proof.KernelHost
import proofs.«177777_j21423296873105_2_alg».proof.Proof.Payload

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.LstmSpec Cert.KernelIdeal.HostValue Cert.KernelIdeal.BodyValue

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps over the grid -/

/-- Where each window's block sits at a point, relative to the output block (bi, ti, 0): the input block moves with
    it on both axes, the bias and cell rows on the batch axis alone, the rest stay at the origin. Decided over the
    128 points. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_1.index t (0 : Fin 2) = 0 ∧ win0_1.index t (1 : Fin 2) = 0
    ∧ win0_2.index t (0 : Fin 2) = win0_6.index t (0 : Fin 3) ∧ win0_2.index t (1 : Fin 2) = 0
    ∧ win0_3.index t (0 : Fin 2) = win0_6.index t (0 : Fin 3) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 8 ∧ win0_6.index t (1 : Fin 3) < 16 :=
  (by decide +kernel : ∀ t : Fin grid0.N, _)

/-- Every one of the 8 × 16 output blocks is some point's. -/
theorem idx_onto : ∀ (q0 : Fin 8) (q1 : Fin 16), ∃ t : Fin cfg0.N, win0_6.index t = ![q0.val, q1.val, 0] :=
  (by decide +kernel : ∀ (q0 : Fin 8) (q1 : Fin 16), ∃ t : Fin grid0.N, win0_6.index t = ![q0.val, q1.val, 0])

/-- The batch row of entry p of point t's blocks, and the time step of entry q. -/
def bAt (t : Fin cfg0.N) (p : Fin 8) : Fin 64 :=
  ⟨win0_6.index t (0 : Fin 3) * 8 + p.val, by have := (idx_facts t).2.2.2.2.2.2.2.2.2.2.2.2.2.2.1; have := p.isLt; omega⟩
def tAt (t : Fin cfg0.N) (q : Fin 64) : Fin 1024 :=
  ⟨win0_6.index t (1 : Fin 3) * 64 + q.val, by have := (idx_facts t).2.2.2.2.2.2.2.2.2.2.2.2.2.2.2; have := q.isLt; omega⟩

/-! ## Each window's block, read where it sits in its array -/

variable (c : Dev nD) (t : Fin cfg0.N)

theorem blk_x (p : Fin 8) (q : Fin 64) (d : Fin 513) :
    iblk m c 0 t (ix3 p q d : S8x64x513.Idx) = m ((c : Thread nD τ).loc main_arg0) (ix3 (bAt t p) (tAt t q) d) := by
  obtain ⟨e0, e1, e2, -⟩ := idx_facts t
  show V m c main_arg0 (((cfg0.win 0).blk t).view.emb (ix3 p q d : S8x64x513.Idx)) = _
  rw [V_main_arg0]
  refine congrArg (m ((c : Thread nD τ).loc main_arg0)) (funext fun a => Fin.ext ?_)
  match a with
  | ⟨0, _⟩ => show win0_0.index t (0 : Fin 3) * 8 + 1 * p.val = win0_6.index t (0 : Fin 3) * 8 + p.val; omega
  | ⟨1, _⟩ => show win0_0.index t (1 : Fin 3) * 64 + 1 * q.val = win0_6.index t (1 : Fin 3) * 64 + q.val; omega
  | ⟨2, _⟩ => show win0_0.index t (2 : Fin 3) * 513 + 1 * d.val = d.val; omega

theorem blk_w (d : Fin 513) (g : Fin 2048) :
    iblk m c 1 t (ix2 d g : S513x2048.Idx) = m ((c : Thread nD τ).loc main_arg3) (ix2 g d) := by
  obtain ⟨-, -, -, -, e0, e1, -⟩ := idx_facts t
  refine Eq.trans ?_ (wih_apply m c d g)
  show V m c main_v11 (((cfg0.win 1).blk t).view.emb (ix2 d g : S513x2048.Idx)) = V m c main_v11 (ix2 d g)
  refine congrArg (V m c main_v11) (funext fun a => Fin.ext ?_)
  match a with
  | ⟨0, _⟩ => show win0_1.index t (0 : Fin 2) * 513 + 1 * d.val = d.val; omega
  | ⟨1, _⟩ => show win0_1.index t (1 : Fin 2) * 2048 + 1 * g.val = g.val; omega

theorem blk_bias (p : Fin 8) (g : Fin 2048) :
    iblk m c 2 t (ix2 p g : S8x2048.Idx)
      = bias (m ((c : Thread nD τ).loc main_arg1)) (m ((c : Thread nD τ).loc main_arg4)) (m ((c : Thread nD τ).loc main_arg5)) (m ((c : Thread nD τ).loc main_arg6)) (bAt t p) g := by
  obtain ⟨-, -, -, -, -, -, e0, e1, -⟩ := idx_facts t
  refine Eq.trans ?_ (bias_apply m c (bAt t p) g)
  show V m c main_v9 (((cfg0.win 2).blk t).view.emb (ix2 p g : S8x2048.Idx)) = V m c main_v9 (ix2 (bAt t p) g)
  refine congrArg (V m c main_v9) (funext fun a => Fin.ext ?_)
  match a with
  | ⟨0, _⟩ => show win0_2.index t (0 : Fin 2) * 8 + 1 * p.val = win0_6.index t (0 : Fin 3) * 8 + p.val; omega
  | ⟨1, _⟩ => show win0_2.index t (1 : Fin 2) * 2048 + 1 * g.val = g.val; omega

theorem blk_c (p : Fin 8) (h : Fin 512) :
    iblk m c 3 t (ix2 p h : S8x512.Idx) = m ((c : Thread nD τ).loc main_arg2) (ix3 (0 : Fin 1) (bAt t p) h) := by
  obtain ⟨-, -, -, -, -, -, -, -, e0, e1, -⟩ := idx_facts t
  refine Eq.trans ?_ (c0_apply m c (bAt t p) h)
  show V m c main_v1 (((cfg0.win 3).blk t).view.emb (ix2 p h : S8x512.Idx)) = V m c main_v1 (ix2 (bAt t p) h)
  refine congrArg (V m c main_v1) (funext fun a => Fin.ext ?_)
  match a with
  | ⟨0, _⟩ => show win0_3.index t (0 : Fin 2) * 8 + 1 * p.val = win0_6.index t (0 : Fin 3) * 8 + p.val; omega
  | ⟨1, _⟩ => show win0_3.index t (1 : Fin 2) * 512 + 1 * h.val = h.val; omega

theorem blk_f (h : Fin 512) (o : Fin 513) :
    iblk m c 4 t (ix2 h o : S512x513.Idx) = m ((c : Thread nD τ).loc main_arg7) (ix2 o h) := by
  obtain ⟨-, -, -, -, -, -, -, -, -, -, e0, e1, -⟩ := idx_facts t
  refine Eq.trans ?_ (fcw_apply m c h o)
  show V m c main_v13 (((cfg0.win 4).blk t).view.emb (ix2 h o : S512x513.Idx)) = V m c main_v13 (ix2 h o)
  refine congrArg (V m c main_v13) (funext fun a => Fin.ext ?_)
  match a with
  | ⟨0, _⟩ => show win0_4.index t (0 : Fin 2) * 512 + 1 * h.val = h.val; omega
  | ⟨1, _⟩ => show win0_4.index t (1 : Fin 2) * 513 + 1 * o.val = o.val; omega

theorem blk_ob (u : Fin 1) (o : Fin 513) :
    iblk m c 5 t (ix2 u o : S1x513.Idx) = m ((c : Thread nD τ).loc main_arg8) (ix1 o) := by
  obtain ⟨-, -, -, -, -, -, -, -, -, -, -, -, e0, e1, -⟩ := idx_facts t
  refine Eq.trans ?_ (fcb_apply m c u o)
  show V m c main_v14 (((cfg0.win 5).blk t).view.emb (ix2 u o : S1x513.Idx)) = V m c main_v14 (ix2 u o)
  refine congrArg (V m c main_v14) (funext fun a => Fin.ext ?_)
  match a with
  | ⟨0, _⟩ => show win0_5.index t (0 : Fin 2) * 1 + 1 * u.val = u.val; omega
  | ⟨1, _⟩ => show win0_5.index t (1 : Fin 2) * 513 + 1 * o.val = o.val; omega

/-- Entry (p, q, o) of the output block sits at (8·bi + p, 64·ti + q, o) of the result array. -/
theorem emb_out (p : Fin 8) (q : Fin 64) (o : Fin 513) :
    ((cfg0.win 6).blk t).view.emb (ix3 p q o : S8x64x513.Idx) = (ix3 (bAt t p) (tAt t q) o : S64x1024x513.Idx) := by
  obtain ⟨-, -, -, e2, -⟩ := idx_facts t
  refine funext fun a => Fin.ext ?_
  match a with
  | ⟨0, _⟩ => show win0_6.index t (0 : Fin 3) * 8 + 1 * p.val = win0_6.index t (0 : Fin 3) * 8 + p.val; omega
  | ⟨1, _⟩ => show win0_6.index t (1 : Fin 3) * 64 + 1 * q.val = win0_6.index t (1 : Fin 3) * 64 + q.val; omega
  | ⟨2, _⟩ => show win0_6.index t (2 : Fin 3) * 513 + 1 * o.val = o.val; omega

/-! ## What a point writes back -/

/-- The body's payload on point t's blocks, at entry (p, q, o), is the specified function at that entry's place in
    the result array. -/
theorem pay_blocks (p : Fin 8) (q : Fin 64) (o : Fin 513) :
    k0_pay1 (F := Ideal) (iblk m c 0 t) (iblk m c 1 t) (iblk m c 2 t) (iblk m c 3 t) (iblk m c 4 t) (iblk m c 5 t)
        (ix3 p q o : S8x64x513.Idx)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bAt t p) (tAt t q) o := by
  refine (pay_apply (iblk m c 0 t) (iblk m c 1 t) (iblk m c 2 t) (iblk m c 3 t) (iblk m c 4 t) (iblk m c 5 t) p q o).trans ?_
  unfold out hid
  refine congrArg₂ (fun a b : EReal => a + b) (Finset.sum_congr rfl fun h _ => ?_) (blk_ob m c t 0 o)
  refine congrArg₂ (fun a b : EReal => a * b) ?_ (blk_f m c t h o)
  refine congrArg₂ (fun (gt : Fin 2048 → EReal) (cs : Fin 512 → EReal) => cell gt cs h) (funext fun g => ?_)
    (funext fun h' => blk_c m c t p h')
  unfold gate
  refine congrArg₂ (fun a b : EReal => a + b) (Finset.sum_congr rfl fun d _ => ?_) (blk_bias m c t p g)
  exact congrArg₂ (fun a b : EReal => a * b) (blk_x m c t p q d) (blk_w m c t d g)

/-- WHAT POINT t WRITES BACK is its block of the specified array. -/
theorem flushed_eq :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed6]
  unfold out0_6
  rw [View.canon_unit_zero hz3]
  simp only [View.ld_unit_zero (S := S8x64x513) hz3, View.ld_unit_zero (S := S513x2048) hz2,
    View.ld_unit_zero (S := S8x2048) hz2, View.ld_unit_zero (S := S8x512) hz2, View.ld_unit_zero (S := S512x513) hz2,
    View.ld_unit_zero (S := S1x513) hz2]
  funext j
  obtain ⟨p, q, o, rfl⟩ : ∃ (p : Fin 8) (q : Fin 64) (o : Fin 513), j = (ix3 p q o : S8x64x513.Idx) :=
    ⟨j 0, j 1, j 2, eq_ix3 (n0 := 8) (n1 := 64) (n2 := 513) j⟩
  show k0_pay1 (F := Ideal) (iblk m c 0 t) (iblk m c 1 t) (iblk m c 2 t) (iblk m c 3 t) (iblk m c 4 t) (iblk m c 5 t)
      (ix3 p q o : S8x64x513.Idx)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 6).blk t).view.emb (ix3 p q o : S8x64x513.Idx))
  rw [emb_out, G_ix3]
  exact pay_blocks m c t p q o

/-! ## The cover, and the array after the run -/

/-- An index of the result array is in point t's block iff each coordinate is in the block's range on its axis. -/
theorem mem_blk (i : S64x1024x513.Idx) :
    i ∈ ((cfg0.win 6).blk t).view.set ↔ ∀ a : Fin 3, win0_6.index t a * S8x64x513.size a ≤ (i a).val
      ∧ (i a).val < win0_6.index t a * S8x64x513.size a + S8x64x513.size a := by
  show i ∈ ((View.whole main_v15).slice (win0_6.rect t)).set ↔ _
  rw [View.set_slice_whole, Rect.mem_set_unit]
  exact Iff.rfl

/-- Every index of the result array is in some point's block: the point of block (row / 8, step / 64). -/
theorem cover (i : S64x1024x513.Idx) :
    ∃ t : Fin cfg0.N, (cfg0.win 6).flush t = true ∧ i ∈ ((cfg0.win 6).blk t).view.set := by
  have hi0 : (i 0).val < 64 := (i 0).isLt
  have hi1 : (i 1).val < 1024 := (i 1).isLt
  have hi2 : (i 2).val < 513 := (i 2).isLt
  obtain ⟨t, ht⟩ := idx_onto ⟨(i 0).val / 8, by omega⟩ ⟨(i 1).val / 64, by omega⟩
  have q0 : win0_6.index t (0 : Fin 3) = (i 0).val / 8 := congrFun ht 0
  have q1 : win0_6.index t (1 : Fin 3) = (i 1).val / 64 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 64 ≤ (i 1).val ∧ (i 1).val < win0_6.index t (1 : Fin 3) * 64 + 64; omega
  | ⟨2, _⟩ => show win0_6.index t (2 : Fin 3) * 513 ≤ (i 2).val ∧ (i 2).val < win0_6.index t (2 : Fin 3) * 513 + 513; omega

/-- THE RESULT ARRAY after the run is the specified function of the argument arrays. -/
theorem final : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 6 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

end Cert.KernelIdeal.ArrayValue

/-! ## The run, read -/

namespace Cert.KernelIdeal.ArrayValue

open Cert.KernelIdeal Cert.KernelIdeal.Gen Idealize.ShloMosaic Idealize.ShloMosaic.TcCoe Idealize.SL.Sem Cert.LstmSpec

/-- The kernel's run: it terminates with the result array at the specified function of the arguments, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.ArrayValue

end
-- ==== Proof.lean ====
/-
  The certificate's claims.

  Both idealized programs compute, at every (b, t, o), one LSTM step from the fixed state (h0, c0) followed by a linear
  layer (Proof/Spec.lean states the function). The kernel does it 8 batch rows × 64 time steps at a time, with the
  recurrent half of the gates, the transposed weights and the re-shaped cell state and output bias prepared by host
  operations; the reference does it on whole arrays, spelling the logistic function as 1 / (1 + e^(-v)). Read index by
  index the two are the same expression of the same argument entries, sums and products associated alike, so the
  results are equal as extended reals for every input and the precondition is never opened.

  The three frames are the generated frame runs (the reference's: its generated run with the result dropped); the
  idealization rewrote nothing, so there is nothing to preserve; the value claim puts the kernel's run
  (Proof/Blocks.lean) beside the reference's generated run read as the specified function (Proof/RefIsSpec.lean).
-/
import proofs.«177777_j21423296873105_2_alg».proof.Defs
import proofs.«177777_j21423296873105_2_alg».proof.Proof.Gen.Kernel
import proofs.«177777_j21423296873105_2_alg».proof.Proof.Gen.Kernel.Frame
import proofs.«177777_j21423296873105_2_alg».proof.Proof.Gen.KernelIdeal
import proofs.«177777_j21423296873105_2_alg».proof.Proof.Gen.KernelIdeal.Frame
import proofs.«177777_j21423296873105_2_alg».proof.Proof.Gen.ReferenceIdeal
import proofs.«177777_j21423296873105_2_alg».proof.Proof.Gen.Pre_finite_inputs
import proofs.«177777_j21423296873105_2_alg».proof.Proof.Gen.KernelIdeal.Value
import proofs.«177777_j21423296873105_2_alg».proof.Proof.Gen.ReferenceIdeal.Run
import proofs.«177777_j21423296873105_2_alg».proof.Proof.Gen.ReferenceIdeal.Read
import proofs.«177777_j21423296873105_2_alg».proof.Proof.RefIsSpec
import proofs.«177777_j21423296873105_2_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the specified function of its arguments, the reference's at its composed term,
    which is the specified function of ITS arguments; the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
